-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x512 : Shape := ⟨2, ![1024, 512]⟩
abbrev S512x512 : Shape := ⟨2, ![512, 512]⟩
abbrev S1x512 : Shape := ⟨2, ![1, 512]⟩
abbrev S1024x256 : Shape := ⟨2, ![1024, 256]⟩
abbrev S512x256 : Shape := ⟨2, ![512, 256]⟩

abbrev nBuf : Space → Nat
  | .hbm => 7
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

def k0_cond3 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  slices_S1024x512_o0_0_S1024x256 : S1024x512.Slices ![0, 0] S1024x256
  slices_S512x512_o0_0_S512x256 : S512x512.Slices ![0, 0] S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S8192x4096_S4x2048x4096 : S8192x4096.ShapeCasts S4x2048x4096
  dot_S1024x512_S512x512_S1024x512_1_1_0_0_n_n_wf : DotDims.WF S1024x512 S512x512 S1024x512 [1] [1] [0] [0] [] []
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S4096x256 : Shape := ⟨2, ![4096, 256]⟩
abbrev S8192x256 : Shape := ⟨2, ![8192, 256]⟩
abbrev S_ : Shape := ⟨0, ![]⟩
abbrev S8192x3840 : Shape := ⟨2, ![8192, 3840]⟩
abbrev S4096x3840 : Shape := ⟨2, ![4096, 3840]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S4096x256, .f32⟩
  | .hbm, ⟨5, _⟩ => ⟨S8192x256, .f32⟩
  | .hbm, ⟨6, _⟩ => ⟨S8192x4096, .f32⟩
  | .hbm, ⟨7, _⟩ => ⟨S8192x256, .f32⟩
  | .hbm, ⟨8, _⟩ => ⟨S4096x256, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .i1⟩
  | .hbm, ⟨25, _⟩ => ⟨S8192x3840, .f32⟩
  | .hbm, ⟨26, _⟩ => ⟨S4096x3840, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S4x2048x4096_S8192x4096 : S4x2048x4096.ShapeCasts S8192x4096
  slices_S4096x4096_S4096x256_0_0 : S4096x4096.Slices ![0, 0] S4096x256
  slices_S8192x4096_S8192x256_0_0 : S8192x4096.Slices ![0, 0] S8192x256
  bcast_S_S8192x4096 : S_.BroadcastsInDim S8192x4096 (![] : Fin 0 → Fin S8192x4096.rank)
  slices_S8192x4096_S8192x3840_0_256 : S8192x4096.Slices ![0, 256] S8192x3840
  slices_S4096x4096_S4096x3840_0_256 : S4096x4096.Slices ![0, 256] S4096x3840
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x256_S4096x256_S8192x4096_1_1_0_0_n_n_wf : DotDims.WF S8192x256 S4096x256 S8192x4096 [1] [1] [0] [0] [] []
  dot_S8192x3840_S4096x3840_S8192x4096_1_1_0_0_n_n_wf : DotDims.WF S8192x3840 S4096x3840 S8192x4096 [1] [1] [0] [0] [] []

variable [Facts₀]

def dot_S8192x256_S4096x256_S8192x4096_1_1_0_0_n_n : DotDims S8192x256 S4096x256 S8192x4096 where
  lhsContracting := [1]
  rhsContracting := [1]
  lhsNonContracting := [0]
  rhsNonContracting := [0]
  lhsBatch := []
  rhsBatch := []
  wf := dot_S8192x256_S4096x256_S8192x4096_1_1_0_0_n_n_wf
def dot_S8192x3840_S4096x3840_S8192x4096_1_1_0_0_n_n : DotDims S8192x3840 S4096x3840 S8192x4096 where
  lhsContracting := [1]
  rhsContracting := [1]
  lhsNonContracting := [0]
  rhsNonContracting := [0]
  lhsBatch := []
  rhsBatch := []
  wf := dot_S8192x3840_S4096x3840_S8192x4096_1_1_0_0_n_n_wf

class Facts : Prop extends Facts₀ where

variable [Facts]
-- ==== Proof.Spec.lean ====
/-
  The mathematics of the gated linear layer, over the extended reals, with no program in sight.

  Inputs: X of shape [8192, 4096] (the rows), W of shape [4096, 4096] (one row per output lane), b of shape [4096].
  For a row r and a lane n write  t(c) = X[r, c] · W[n, c]  and  q(c) = (X[r, c] · X[r, c]) · (W[n, c] · W[n, c]).
  The first 256 columns decide a gate:  y₁ = ∑_{c < 256} t(c),  s₂ = ∑_{c < 256} q(c),
      gate = ( |y₁| / max (√(s₂ / 256 + ε), ε) < 3 ),
  and the result is  (0 if the gate holds, else ∑_{c < 4096} t(c)) + b[n].

  To speak of partial sums over the first K columns without carrying a bound on K, X and W are read through total
  functions of two naturals (zero outside the array); a partial sum is then a sum over `Finset.range K`.
  Two laws are all that the two programs need to agree:
    · a · keep = (0 if the gate holds, else a), where keep is 0 under the gate and 1 otherwise  (a · 0 = 0 and a · 1 = a hold
      for EVERY extended real, infinities included, so no finiteness is asked of a);
    · a sum over the first K + L columns is the sum over the first K plus the sum over the next L (associativity only).
-/
import Idealize.ShloMosaic.PureOps.Ideal
import Idealize.ShloMosaic.PureOps.Ideal.Laws
import Idealize.ShloMosaic.Lib.IdealHost
import Idealize.ShloMosaic.Lib.ValueIdx

noncomputable section

namespace Cert.GatedLinear

open Idealize.ShloMosaic Idealize.ShloMosaic.ValueIdx

/-- Entry (r, c) of the [8192, 4096] array of rows, zero outside it. -/
def rowAt (X : (⟨2, ![8192, 4096]⟩ : Shape).Idx → EReal) (r c : ℕ) : EReal :=
  if h : r < 8192 ∧ c < 4096 then X (ix2 ⟨r, h.1⟩ ⟨c, h.2⟩) else 0

/-- Entry (n, c) of the [4096, 4096] array of lane weights, zero outside it. -/
def laneAt (W : (⟨2, ![4096, 4096]⟩ : Shape).Idx → EReal) (n c : ℕ) : EReal :=
  if h : n < 4096 ∧ c < 4096 then W (ix2 ⟨n, h.1⟩ ⟨c, h.2⟩) else 0

theorem rowAt_of_lt (X : (⟨2, ![8192, 4096]⟩ : Shape).Idx → EReal) {r c : ℕ} (hr : r < 8192) (hc : c < 4096) :
    rowAt X r c = X (ix2 ⟨r, hr⟩ ⟨c, hc⟩) := by
  unfold rowAt; rw [dif_pos ⟨hr, hc⟩]

theorem laneAt_of_lt (W : (⟨2, ![4096, 4096]⟩ : Shape).Idx → EReal) {n c : ℕ} (hn : n < 4096) (hc : c < 4096) :
    laneAt W n c = W (ix2 ⟨n, hn⟩ ⟨c, hc⟩) := by
  unfold laneAt; rw [dif_pos ⟨hn, hc⟩]

variable (X : (⟨2, ![8192, 4096]⟩ : Shape).Idx → EReal) (W : (⟨2, ![4096, 4096]⟩ : Shape).Idx → EReal)

/-- The product of column c: X[r, c] · W[n, c]. -/
def term (r n c : ℕ) : EReal := rowAt X r c * laneAt W n c

/-- The product of the squares of column c: (X[r, c] · X[r, c]) · (W[n, c] · W[n, c]). -/
def sqTerm (r n c : ℕ) : EReal := (rowAt X r c * rowAt X r c) * (laneAt W n c * laneAt W n c)

/-- The sum of the products over the first K columns. -/
def dotTo (r n K : ℕ) : EReal := ∑ c ∈ Finset.range K, term X W r n c

/-- The sum of the squared products over the first K columns. -/
def sqTo (r n K : ℕ) : EReal := ∑ c ∈ Finset.range K, sqTerm X W r n c

/-- The gate of a lane, from its two prefix statistics: |y₁| / max (√(s₂ / 256 + ε), ε) < 3, with ε the single-precision
    word nearest 10⁻⁶ — the same word wherever it occurs, so it is never evaluated. -/
def gate (y1 s2 : EReal) : BitVec 1 :=
  Ideal.cmp .olt
    (Ideal.div (max y1 (-y1))
      (max (Ideal.sqrt (Ideal.div s2 (Ideal.ofBits .f32 0x43800000#32) + Ideal.ofBits .f32 0x358637BD#32))
        (Ideal.ofBits .f32 0x358637BD#32)))
    (Ideal.ofBits .f32 0x40400000#32)

/-- The factor a lane is multiplied by: 0 under the gate, 1 otherwise. -/
def keep (g : BitVec 1) : EReal :=
  Scalar.select g (Ideal.ofBits .f32 0x00000000#32) (Ideal.ofBits .f32 0x3F800000#32)

/-- The whole [8192, 4096] result: the gated full sum plus the lane's bias. -/
def result (b : (⟨1, ![4096]⟩ : Shape).Idx → EReal) (i : (⟨2, ![8192, 4096]⟩ : Shape).Idx) : EReal :=
  Scalar.select (gate (dotTo X W (i 0).val (i 1).val 256) (sqTo X W (i 0).val (i 1).val 256))
      (Ideal.ofBits .f32 0x00000000#32) (dotTo X W (i 0).val (i 1).val 4096)
    + b (ix1 (i 1))

/-- Multiplying by the keep factor IS the selection: a · 0 = 0 and a · 1 = a for every extended real a. -/
theorem mul_keep (a : EReal) (g : BitVec 1) :
    a * keep g = Scalar.select g (Ideal.ofBits .f32 0x00000000#32) a := by
  unfold keep Scalar.select
  by_cases h : g = 1
  · rw [if_pos h, if_pos h, Ideal.ofBits_zero_f32, mul_zero]
  · rw [if_neg h, if_neg h, Ideal.ofBits_one_f32, mul_one]

/-- A sum over the first K + L columns splits after column K. -/
theorem dotTo_add (r n K L : ℕ) :
    dotTo X W r n (K + L) = dotTo X W r n K + ∑ c ∈ Finset.range L, term X W r n (K + c) := by
  unfold dotTo
  exact Finset.sum_range_add _ K L

/-- The same with the next L columns counted by `Fin L`. -/
theorem dotTo_add_fin (r n K L : ℕ) :
    dotTo X W r n (K + L) = dotTo X W r n K + ∑ c : Fin L, term X W r n (K + c.val) := by
  rw [dotTo_add, Finset.sum_range]

/-- A sum over the first K columns, counted by `Fin K`. -/
theorem dotTo_fin (r n K : ℕ) : dotTo X W r n K = ∑ c : Fin K, term X W r n c.val := by
  unfold dotTo; rw [Finset.sum_range]

theorem sqTo_fin (r n K : ℕ) : sqTo X W r n K = ∑ c : Fin K, sqTerm X W r n c.val := by
  unfold sqTo; rw [Finset.sum_range]

theorem dotTo_zero (r n : ℕ) : dotTo X W r n 0 = 0 := by
  unfold dotTo; rw [Finset.range_zero, Finset.sum_empty]

end Cert.GatedLinear

end
-- ==== Proof.RefValue.lean ====
/-
  The reference computes the specified function.

  Read at an index (r, n) of the [8192, 4096] result, the reference's two prefix contractions are the sums over the first 256
  columns of X[r, c] · W[n, c] and of (X[r, c] · X[r, c]) · (W[n, c] · W[n, c]); its third contraction runs over columns
  256 + c for c < 3840, so prefix + tail is the sum over all 4096 columns (a sum split after column 256); its comparison is
  the gate of the two prefix statistics; the selection puts 0 under the gate; and the bias, broadcast along the rows, is read
  at the lane n. Here X is the [4, 2048, 4096] argument re-laid as [8192, 4096] — the reshape is kept as it is, never opened.
-/
import proofs.«161111_j30949534335490_2_alg».proof.Proof.Gen.ReferenceIdeal.Read
import proofs.«161111_j30949534335490_2_alg».proof.Proof.Spec

noncomputable section

namespace Cert.ReferenceIdeal.RefValue

open Cert.ReferenceIdeal Cert.ReferenceIdeal.Read Idealize.ShloMosaic Idealize.ShloMosaic.ValueIdx Cert.GatedLinear

variable (x0 : (⟨S4x2048x4096, .f32⟩ : BufTy).Contents (Elt Ideal)) (x1 : (⟨S4096x4096, .f32⟩ : BufTy).Contents (Elt Ideal))
  (x2 : (⟨S4096, .f32⟩ : BufTy).Contents (Elt Ideal))

/-- The rows: the first argument re-laid as [8192, 4096]. -/
abbrev rows : (⟨2, ![8192, 4096]⟩ : Shape).Idx → EReal := val_main_v0 (F := Ideal) x0

/-- Column c < 256 of the sliced rows is column c of the rows. -/
theorem pre_row (i : S8192x4096.Idx) (k : Fin 256) :
    val_main_v2 (F := Ideal) x0 (lidx_main_v3 i k) = rowAt (rows x0) (i 0).val k.val := by
  have h0 : (i 0).val < 8192 := (i 0).isLt
  rw [val_main_v2_apply, rowAt_of_lt _ h0 (by have := k.isLt; omega)]
  exact congrArg _ (funext fun a => Fin.ext (by match a with | ⟨0, _⟩ => rfl | ⟨1, _⟩ => rfl))

/-- Column c < 256 of the sliced lane weights is column c of the weights. -/
theorem pre_lane (i : S8192x4096.Idx) (k : Fin 256) :
    val_main_v1 (F := Ideal) x1 (ridx_main_v3 i k) = laneAt x1 (i 1).val k.val := by
  have h1 : (i 1).val < 4096 := (i 1).isLt
  rw [val_main_v1_apply, laneAt_of_lt _ h1 (by have := k.isLt; omega)]
  exact congrArg _ (funext fun a => Fin.ext (by match a with | ⟨0, _⟩ => rfl | ⟨1, _⟩ => rfl))

/-- The first contraction is the prefix sum of the products. -/
theorem prefix_dot (i : S8192x4096.Idx) :
    val_main_v3 (F := Ideal) x0 x1 i = dotTo (rows x0) x1 (i 0).val (i 1).val 256 := by
  rw [val_main_v3_apply, dotTo_fin]
  refine Finset.sum_congr rfl fun k _ => ?_
  rw [pre_row, pre_lane]; rfl

/-- The second contraction is the prefix sum of the squared products. -/
theorem prefix_sq (i : S8192x4096.Idx) :
    val_main_v6 (F := Ideal) x0 x1 i = sqTo (rows x0) x1 (i 0).val (i 1).val 256 := by
  rw [val_main_v6_apply, sqTo_fin]
  refine Finset.sum_congr rfl fun k _ => ?_
  rw [val_main_v4_apply, val_main_v5_apply]
  have e0 : lidx_main_v6 i k = lidx_main_v3 i k := rfl
  have e1 : ridx_main_v6 i k = ridx_main_v3 i k := rfl
  rw [e0, e1, pre_row, pre_lane]; rfl

/-- The third contraction is the sum of the products over columns 256 + c, c < 3840. -/
theorem tail_dot (i : S8192x4096.Idx) :
    val_main_v20 (F := Ideal) x0 x1 i = ∑ c : Fin 3840, term (rows x0) x1 (i 0).val (i 1).val (256 + c.val) := by
  have h0 : (i 0).val < 8192 := (i 0).isLt
  have h1 : (i 1).val < 4096 := (i 1).isLt
  rw [val_main_v20_apply]
  refine Finset.sum_congr rfl fun k _ => ?_
  rw [val_main_v18_apply, val_main_v19_apply]
  unfold term
  rw [rowAt_of_lt _ h0 (by have := k.isLt; omega : 256 + k.val < 4096), laneAt_of_lt _ h1 (by have := k.isLt; omega : 256 + k.val < 4096)]
  refine congrArg₂ (· * ·) (congrArg _ ?_) (congrArg _ ?_)
  · exact funext fun a => Fin.ext (by match a with | ⟨0, _⟩ => rfl | ⟨1, _⟩ => rfl)
  · exact funext fun a => Fin.ext (by match a with | ⟨0, _⟩ => rfl | ⟨1, _⟩ => rfl)

/-- Prefix plus tail is the sum over all 4096 columns. -/
theorem full_dot (i : S8192x4096.Idx) :
    val_main_v21 (F := Ideal) x0 x1 i = dotTo (rows x0) x1 (i 0).val (i 1).val 4096 := by
  rw [val_main_v21_apply, prefix_dot, tail_dot, show (4096 : ℕ) = 256 + 3840 from rfl, dotTo_add_fin]; rfl

/-- The comparison is the gate of the two prefix statistics. -/
theorem gate_eq (i : S8192x4096.Idx) :
    val_main_v17 (F := Ideal) x0 x1 i
      = gate (dotTo (rows x0) x1 (i 0).val (i 1).val 256) (sqTo (rows x0) x1 (i 0).val (i 1).val 256) := by
  rw [val_main_v17_apply, val_main_v15_apply, val_main_v12_apply, val_main_v14_apply, val_main_v11_apply, val_main_v10_apply,
    val_main_v8_apply, val_main_v7_apply, val_main_v9_apply, val_main_v13_apply, val_main_v16_apply, val_main_cst_apply,
    val_main_cst_0_apply, val_main_cst_1_apply, val_main_cst_2_apply, prefix_dot, prefix_sq]
  rfl

/-- The bias, broadcast along the rows, read at (r, n) is b[n]. -/
theorem bias_eq (i : S8192x4096.Idx) : val_main_v24 (F := Ideal) x2 i = x2 (ix1 (i 1)) := by
  rw [val_main_v24_apply, val_main_v23_apply]
  exact congrArg _ (funext fun a => by match a with | ⟨0, _⟩ => rfl)

/-- The reference's [8192, 4096] stage before the final re-laying is the specified result. -/
theorem stage_eq : val_main_v25 (F := Ideal) x0 x1 x2 = result (rows x0) x1 x2 := by
  funext i
  rw [val_main_v25_apply, val_main_v22_apply, gate_eq, full_dot, bias_eq, val_main_call0_v1_apply, val_main_call0_v0_apply,
    val_main_cst_3_apply]
  rfl

end Cert.ReferenceIdeal.RefValue

end
-- ==== Proof.Pieces.lean ====
/-
  What each of the three kinds of grid point leaves behind, as plain functions of the blocks it loaded.

  A tile (i, j) of the output is visited at eight consecutive points, one per 512-column block k of the contraction.
  The body carries two scratch buffers from point to point: the accumulator and the keep factor.
    · k = 0: the accumulator is zeroed, then receives this block's product; the keep factor is computed from the first
      256 columns of this block.
    · 0 < k < 7: the accumulator receives this block's product; the keep factor is left as it was.
    · k = 7: the accumulator receives this block's product; the output block is (accumulator) · (keep factor) + (bias block).
  Each statement holds for any float values, not only the extended reals.
-/
import proofs.«161111_j30949534335490_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At the first column block of a tile the accumulator ends at the zero block plus this block's product. -/
theorem acc_A (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : cond0_1 i) (hc2 : ¬cond0_2 i)
    (x0 : Vec F S1024x512 .f32) (x1 : Vec F S512x512 .f32) (x2 : Vec F S1x512 .f32) :
    sout0_A_0 c i arg3 harg3 arg4 harg4 arg5 harg5 arg6 harg6 arg7 harg7 arg8 harg8 hc0 hc1 hc2 x0 x1 x2 = k0_pay3 x0 x1 k0_pay1 := by
  unfold sout0_A_0
  rw [View.read_writes_eq_canon _ _ _ (scover0_A_0 c i arg3 harg3 arg4 harg4 arg5 harg5 arg6 harg6 arg7 harg7 arg8 harg8 hc0 hc1 hc2 x0 x1 x2)]
  unfold kernelRun0_A
  dsimp only
  sl_unfold_words
  rw [View.canon_cons_unit_zero (S := S1024x512) hz, View.readCov_unit_zero (S := S1024x512) _ hz]
  simp only [View.readAt_eq_ld, harg3.read_unread, harg4.read_unread, View.ld_unit_zero (S := S1024x512) hz,
    View.ld_unit_zero (S := S512x512) hz]

/-- At the first column block of a tile the second scratch ends at the keep factor of the block's first 256 columns. -/
theorem keep_A (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : cond0_1 i) (hc2 : ¬cond0_2 i)
    (x0 : Vec F S1024x512 .f32) (x1 : Vec F S512x512 .f32) (x2 : Vec F S1x512 .f32) :
    sout0_A_1 c i arg3 harg3 arg4 harg4 arg5 harg5 arg6 harg6 arg7 harg7 arg8 harg8 hc0 hc1 hc2 x0 x1 x2 = k0_pay4 x0 x1 := by
  unfold sout0_A_1
  rw [View.read_writes_eq_canon _ _ _ (scover0_A_1 c i arg3 harg3 arg4 harg4 arg5 harg5 arg6 harg6 arg7 harg7 arg8 harg8 hc0 hc1 hc2 x0 x1 x2)]
  unfold kernelRun0_A
  dsimp only
  sl_unfold_words
  rw [View.canon_unit_zero hz]
  simp only [View.readAt_eq_ld, harg3.read_unread, harg4.read_unread, View.ld_unit_zero (S := S1024x512) hz,
    View.ld_unit_zero (S := S512x512) hz]

/-- At a middle column block the accumulator ends at what it held plus this block's product. -/
theorem acc_B (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : ¬cond0_1 i) (hc2 : ¬cond0_2 i)
    (x0 : Vec F S1024x512 .f32) (x1 : Vec F S512x512 .f32) (x2 : Vec F S1x512 .f32) (xs0 xs1 : Vec F S1024x512 .f32) :
    sout0_B_0 c i arg3 harg3 arg4 harg4 arg5 harg5 arg6 harg6 arg7 harg7 arg8 harg8 hc0 hc1 hc2 x0 x1 x2 xs0 xs1 = k0_pay3 x0 x1 xs0 := by
  unfold sout0_B_0
  rw [View.read_writes_eq_canon _ _ _ (scover0_B_0 c i arg3 harg3 arg4 harg4 arg5 harg5 arg6 harg6 arg7 harg7 arg8 harg8 hc0 hc1 hc2 x0 x1 x2 xs0 xs1)]
  unfold kernelRun0_B
  dsimp only
  rw [View.canon_unit_zero hz]
  simp only [View.readAt_eq_ld, harg3.read_unread, harg4.read_unread, harg7.read_unread, View.ld_unit_zero (S := S1024x512) hz,
    View.ld_unit_zero (S := S512x512) hz]

/-- At the last column block the accumulator ends at what it held plus this block's product. -/
theorem acc_C (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : ¬cond0_1 i) (hc2 : cond0_2 i)
    (x0 : Vec F S1024x512 .f32) (x1 : Vec F S512x512 .f32) (x2 : Vec F S1x512 .f32) (xs0 xs1 : Vec F S1024x512 .f32) :
    sout0_C_0 c i arg3 harg3 arg4 harg4 arg5 harg5 arg6 harg6 arg7 harg7 arg8 harg8 hc0 hc1 hc2 x0 x1 x2 xs0 xs1 = k0_pay3 x0 x1 xs0 := by
  unfold sout0_C_0
  rw [View.read_writes_eq_canon _ _ _ (scover0_C_0 c i arg3 harg3 arg4 harg4 arg5 harg5 arg6 harg6 arg7 harg7 arg8 harg8 hc0 hc1 hc2 x0 x1 x2 xs0 xs1)]
  unfold kernelRun0_C
  dsimp only
  sl_unfold_words
  rw [View.canon_unit_zero hz]
  simp only [View.readAt_eq_ld, harg3.read_unread, harg4.read_unread, harg7.read_unread, View.ld_unit_zero (S := S1024x512) hz,
    View.ld_unit_zero (S := S512x512) hz]

/-- At the last column block the output block ends at (the finished accumulator) · (the keep factor) + (the bias block). -/
theorem out_C (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : ¬cond0_1 i) (hc2 : cond0_2 i)
    (x0 : Vec F S1024x512 .f32) (x1 : Vec F S512x512 .f32) (x2 : Vec F S1x512 .f32) (xs0 xs1 : Vec F S1024x512 .f32) :
    out0_C_3 c i arg3 harg3 arg4 harg4 arg5 harg5 arg6 harg6 arg7 harg7 arg8 harg8 hc0 hc1 hc2 x0 x1 x2 xs0 xs1 = k0_pay5 (k0_pay3 x0 x1 xs0) xs1 x2 := by
  unfold out0_C_3
  rw [View.read_writes_eq_canon _ _ _ (cover0_C_3 c i arg3 harg3 arg4 harg4 arg5 harg5 arg6 harg6 arg7 harg7 arg8 harg8 hc0 hc1 hc2 x0 x1 x2 xs0 xs1)]
  unfold kernelRun0_C
  dsimp only
  sl_unfold_words
  rw [View.canon_unit_zero hz]
  simp only [View.readAt_eq_ld, harg3.read_unread, harg4.read_unread, harg5.read_unread, harg7.read_unread, harg8.read_unread,
    View.readCov_unit_zero (S := S1024x512) _ hz, View.ld_unit_zero (S := S1024x512) hz,
    View.ld_unit_zero (S := S512x512) hz, View.ld_unit_zero (S := S1x512) hz]

end Cert.KernelIdeal.Pieces

end
-- ==== Proof.Chain.lean ====
/-
  The two carried buffers, point by point, as the body's values of the blocks.

  Write acc(t) and keep(t) for what the accumulator and the keep buffer hold after grid point t, and k = t mod 8 for the
  point's column block. Then
    · k = 0:      acc(t) = (updated accumulator) of the point's blocks over the zero block;  keep(t) = the keep factor of the point's blocks;
    · k ≠ 0:      acc(t) = (updated accumulator) of the point's blocks over acc(t − 1);      keep(t) = keep(t − 1);
    · k = 7:      the output block is (output value) of acc(t), keep(t − 1) and the point's bias block.
  For any float values.
-/
import proofs.«161111_j30949534335490_2_alg».proof.Proof.Pieces

set_option maxRecDepth 16384

noncomputable section

open Idealize.ShloMosaic Idealize.ShloMosaic.TcCoe Idealize.SL.Sem

namespace Cert.KernelIdeal.Chain

open Cert.KernelIdeal Cert.KernelIdeal.Gen

variable {F : FTy → Type} [FloatOps F]
variable (m : (ℓ : Loc nD τ sig) → Buf (Elt F) ℓ)

/-- At the first column block of a tile both carried buffers start afresh. -/
theorem first (c : Dev nD) (t : Fin cfg0.N) (h0 : t.val % 8 = 0) :
    (outsAt0 m c t.val t.isLt).2.1 = k0_pay3 (iblk m c 0 t) (iblk m c 1 t) k0_pay1
    ∧ (outsAt0 m c t.val t.isLt).2.2 = k0_pay4 (iblk m c 0 t) (iblk m c 1 t) := by
  have h2 : ¬t.val % 8 = 7 := by omega
  rw [outsAt0_A m c t h0 h0 h2]
  dsimp only
  refine ⟨?_, ?_⟩
  · exact Pieces.acc_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h0) (fun h => h2 ((hcond0_2 t).mp h)) (iblk m c 0 t) (iblk m c 1 t) (iblk m c 2 t)
  · exact Pieces.keep_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h0) (fun h => h2 ((hcond0_2 t).mp h)) (iblk m c 0 t) (iblk m c 1 t) (iblk m c 2 t)

/-- At every later column block the accumulator extends the previous point's and the keep buffer is handed on. -/
theorem later (c : Dev nD) (t : Fin cfg0.N) (h0 : ¬t.val % 8 = 0) :
    (outsAt0 m c t.val t.isLt).2.1
        = k0_pay3 (iblk m c 0 t) (iblk m c 1 t) (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  by_cases h2 : t.val % 8 = 7
  · rw [outsAt0_C m c t h0 h0 h2]
    dsimp only
    refine ⟨?_, ?_⟩
    · exact Pieces.acc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h0 ((hcond0_1 t).mp h)) ((hcond0_2 t).mpr h2) (iblk m c 0 t) (iblk m c 1 t) (iblk m c 2 t)
        (outsAt0 m c (t.val - 1) (Nat.lt_of_le_of_lt (Nat.sub_le _ _) t.isLt)).2.1 (outsAt0 m c (t.val - 1) (Nat.lt_of_le_of_lt (Nat.sub_le _ _) t.isLt)).2.2
    · unfold sout0_C_1; rfl
  · rw [outsAt0_B m c t h0 h0 h2]
    dsimp only
    refine ⟨?_, ?_⟩
    · exact Pieces.acc_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h0 ((hcond0_1 t).mp h)) (fun h => h2 ((hcond0_2 t).mp h)) (iblk m c 0 t) (iblk m c 1 t) (iblk m c 2 t)
        (outsAt0 m c (t.val - 1) (Nat.lt_of_le_of_lt (Nat.sub_le _ _) t.isLt)).2.1 (outsAt0 m c (t.val - 1) (Nat.lt_of_le_of_lt (Nat.sub_le _ _) t.isLt)).2.2
    · unfold sout0_B_1; rfl

/-- At the last column block the output block is the output value of the finished accumulator, the keep buffer and the bias block. -/
theorem last (c : Dev nD) (t : Fin cfg0.N) (h2 : t.val % 8 = 7) :
    (outsAt0 m c t.val t.isLt).1
      = k0_pay5 (k0_pay3 (iblk m c 0 t) (iblk m c 1 t) (outsAt0 m c (t.val - 1) (Nat.lt_of_le_of_lt (Nat.sub_le _ _) t.isLt)).2.1)
          (outsAt0 m c (t.val - 1) (Nat.lt_of_le_of_lt (Nat.sub_le _ _) t.isLt)).2.2 (iblk m c 2 t) := by
  have h0 : ¬t.val % 8 = 0 := by omega
  rw [outsAt0_C m c t h0 h0 h2]
  dsimp only
  exact Pieces.out_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h0 ((hcond0_1 t).mp h)) ((hcond0_2 t).mpr h2) (iblk m c 0 t) (iblk m c 1 t) (iblk m c 2 t)
    (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Chain

end
-- ==== Proof.Payload.lean ====
/-
  The body's five values, read at an entry (p, q) of the [1024, 512] tile, over the extended reals.

  With x the [1024, 512] block of rows, w the [512, 512] block of lane weights (one row per lane), a the accumulator,
  κ the keep factor and β the [1, 512] bias block:
    · the zero block is 0;
    · the updated accumulator is  a(p, q) + ∑_{k < 512} x(p, k) · w(q, k)   (a change of float format is the identity, and
      a matrix product into a zero accumulator is the plain sum over the contracted axis);
    · the keep factor is computed from the first 256 columns of the two blocks:
        y₁ = ∑_{k < 256} x(p, k) · w(q, k),   s₂ = ∑_{k < 256} (x(p, k) · x(p, k)) · (w(q, k) · w(q, k)),   κ = keep (gate y₁ s₂);
    · the output is  a(p, q) · κ(p, q) + β(0, q).
-/
import proofs.«161111_j30949534335490_2_alg».proof.Proof.Gen.KernelIdeal.Skeleton
import proofs.«161111_j30949534335490_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.GatedLinear

/-! ## The two matrix products, as sums over the contracted axis -/

theorem full_l0 (i : S1024x512.Idx) (q : dot_S1024x512_S512x512_S1024x512_1_1_0_0_n_n.contr.Idx) : (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem full_l1 (i : S1024x512.Idx) (q : dot_S1024x512_S512x512_S1024x512_1_1_0_0_n_n.contr.Idx) : (dot_S1024x512_S512x512_S1024x512_1_1_0_0_n_n.lhsIdx i q 1).val = (q ⟨0, by decide⟩).val :=
  dot_S1024x512_S512x512_S1024x512_1_1_0_0_n_n.lhsIdx_val_of_single rfl i q
theorem full_r0 (i : S1024x512.Idx) (q : dot_S1024x512_S512x512_S1024x512_1_1_0_0_n_n.contr.Idx) : (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem full_r1 (i : S1024x512.Idx) (q : dot_S1024x512_S512x512_S1024x512_1_1_0_0_n_n.contr.Idx) : (dot_S1024x512_S512x512_S1024x512_1_1_0_0_n_n.rhsIdx i q 1).val = (q ⟨0, by decide⟩).val :=
  dot_S1024x512_S512x512_S1024x512_1_1_0_0_n_n.rhsIdx_val_of_single rfl i q

theorem pre_l0 (i : S1024x512.Idx) (q : dot_S1024x256_S512x256_S1024x512_1_1_0_0_n_n.contr.Idx) : (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem pre_l1 (i : S1024x512.Idx) (q : dot_S1024x256_S512x256_S1024x512_1_1_0_0_n_n.contr.Idx) : (dot_S1024x256_S512x256_S1024x512_1_1_0_0_n_n.lhsIdx i q 1).val = (q ⟨0, by decide⟩).val :=
  dot_S1024x256_S512x256_S1024x512_1_1_0_0_n_n.lhsIdx_val_of_single rfl i q
theorem pre_r0 (i : S1024x512.Idx) (q : dot_S1024x256_S512x256_S1024x512_1_1_0_0_n_n.contr.Idx) : (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem pre_r1 (i : S1024x512.Idx) (q : dot_S1024x256_S512x256_S1024x512_1_1_0_0_n_n.contr.Idx) : (dot_S1024x256_S512x256_S1024x512_1_1_0_0_n_n.rhsIdx i q 1).val = (q ⟨0, by decide⟩).val :=
  dot_S1024x256_S512x256_S1024x512_1_1_0_0_n_n.rhsIdx_val_of_single rfl i q

/-- The product of a whole block of rows with a whole block of lane weights, both contracted along their columns. -/
theorem full_apply (a : FVec Ideal S1024x512 .bf16) (b : FVec Ideal S512x512 .bf16) (p : Fin 1024) (q : Fin 512) :
    matmul dot_S1024x512_S512x512_S1024x512_1_1_0_0_n_n none a b (constant S1024x512 .f32 0x00000000#32) (ix2 p q)
      = ∑ k : Fin 512, a (ix2 p k) * b (ix2 q k) := by
  simp only [matmul]
  rw [Ideal.matmul_constant_zero_apply, ← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 p q) ((contrEquiv1 dot_S1024x512_S512x512_S1024x512_1_1_0_0_n_n 512 rfl rfl).symm k) = ix2 p k := funext fun a => Fin.ext (by
    match a with
    | ⟨0, _⟩ => exact full_l0 _ _
    | ⟨1, _⟩ => exact (full_l1 _ _).trans hk)
  have er : dot_S1024x512_S512x512_S1024x512_1_1_0_0_n_n.rhsIdx (ix2 p q) ((contrEquiv1 dot_S1024x512_S512x512_S1024x512_1_1_0_0_n_n 512 rfl rfl).symm k) = ix2 q k := funext fun a => Fin.ext (by
    match a with
    | ⟨0, _⟩ => exact full_r0 _ _
    | ⟨1, _⟩ => exact (full_r1 _ _).trans hk)
  rw [el, er]

/-- The same over the first 256 columns only. -/
theorem pre_apply (a : FVec Ideal S1024x256 .bf16) (b : FVec Ideal S512x256 .bf16) (p : Fin 1024) (q : Fin 512) :
    matmul dot_S1024x256_S512x256_S1024x512_1_1_0_0_n_n none a b (constant S1024x512 .f32 0x00000000#32) (ix2 p q)
      = ∑ k : Fin 256, a (ix2 p k) * b (ix2 q k) := by
  simp only [matmul]
  rw [Ideal.matmul_constant_zero_apply, ← Equiv.sum_comp (contrEquiv1 dot_S1024x256_S512x256_S1024x512_1_1_0_0_n_n 256 rfl rfl).symm]
  refine Finset.sum_congr rfl fun k _ => ?_
  have hk := contrEquiv1_symm_val dot_S1024x256_S512x256_S1024x512_1_1_0_0_n_n 256 rfl rfl k
  have el : dot_S1024x256_S512x256_S1024x512_1_1_0_0_n_n.lhsIdx (ix2 p q) ((contrEquiv1 dot_S1024x256_S512x256_S1024x512_1_1_0_0_n_n 256 rfl rfl).symm k) = ix2 p k := funext fun a => Fin.ext (by
    match a with
    | ⟨0, _⟩ => exact pre_l0 _ _
    | ⟨1, _⟩ => exact (pre_l1 _ _).trans hk)
  have er : dot_S1024x256_S512x256_S1024x512_1_1_0_0_n_n.rhsIdx (ix2 p q) ((contrEquiv1 dot_S1024x256_S512x256_S1024x512_1_1_0_0_n_n 256 rfl rfl).symm k) = ix2 q k := funext fun a => Fin.ext (by
    match a with
    | ⟨0, _⟩ => exact pre_r0 _ _
    | ⟨1, _⟩ => exact (pre_r1 _ _).trans hk)
  rw [el, er]

/-! ## The payloads -/

/-- The block the accumulator is reset to is zero everywhere. -/
theorem zero_apply (j : S1024x512.Idx) : k0_pay1 (F := Ideal) j = 0 := by
  unfold k0_pay1
  rw [shapeCast_self]
  exact Ideal.ofBits_zero_f32

/-- The accumulator after a point: what it held plus the block's product. -/
theorem acc_apply (x : Vec Ideal S1024x512 .f32) (w : Vec Ideal S512x512 .f32) (a : Vec Ideal S1024x512 .f32)
    (p : Fin 1024) (q : Fin 512) :
    k0_pay3 (F := Ideal) x w a (ix2 p q) = a (ix2 p q) + ∑ k : Fin 512, x (ix2 p k) * w (ix2 q k) := by
  unfold k0_pay3 k0_pay2
  rw [shapeCast_self, shapeCast_self, addf_apply, full_apply]
  rfl

/-- Column k < 256 of the sliced block of rows. -/
theorem slice_rows (x : Vec Ideal S1024x512 .f32) (p : Fin 1024) (k : Fin 256) :
    extractStridedSlice S1024x256 ![0, 0] x slices_S1024x512_o0_0_S1024x256 (ix2 p k)
      = x (ix2 p ⟨k.val, by have := k.isLt; omega⟩) :=
  extractStridedSlice_apply ![0, 0] x slices_S1024x512_o0_0_S1024x256 (ix2 p k) (ix2 p ⟨k.val, by have := k.isLt; omega⟩)
    (fun a => match a with
      | ⟨0, _⟩ => by show p.val = 0 + p.val; omega
      | ⟨1, _⟩ => by show k.val = 0 + k.val; omega)

/-- Column k < 256 of the sliced block of lane weights. -/
theorem slice_lanes (w : Vec Ideal S512x512 .f32) (q : Fin 512) (k : Fin 256) :
    extractStridedSlice S512x256 ![0, 0] w slices_S512x512_o0_0_S512x256 (ix2 q k)
      = w (ix2 q ⟨k.val, by have := k.isLt; omega⟩) :=
  extractStridedSlice_apply ![0, 0] w slices_S512x512_o0_0_S512x256 (ix2 q k) (ix2 q ⟨k.val, by have := k.isLt; omega⟩)
    (fun a => match a with
      | ⟨0, _⟩ => by show q.val = 0 + q.val; omega
      | ⟨1, _⟩ => by show k.val = 0 + k.val; omega)

/-- The prefix contraction of the two sliced blocks is the sum over the first 256 columns of the products. -/
theorem pre_dot (x : Vec Ideal S1024x512 .f32) (w : Vec Ideal S512x512 .f32) (p : Fin 1024) (q : Fin 512) :
    matmul (F := Ideal) dot_S1024x256_S512x256_S1024x512_1_1_0_0_n_n none
        (truncf .bf16 (extractStridedSlice S1024x256 ![0, 0] x slices_S1024x512_o0_0_S1024x256) bitsLt_bf16_f32)
        (truncf .bf16 (extractStridedSlice S512x256 ![0, 0] w slices_S512x512_o0_0_S512x256) bitsLt_bf16_f32)
        (constant S1024x512 .f32 0x00000000#32) (ix2 p q)
      = ∑ k : Fin 256, x (ix2 p ⟨k.val, by have := k.isLt; omega⟩) * w (ix2 q ⟨k.val, by have := k.isLt; omega⟩) := by
  rw [pre_apply]
  refine Finset.sum_congr rfl fun k _ => ?_
  rw [truncf_apply, truncf_apply, slice_rows, slice_lanes]

/-- The prefix contraction of the squared sliced blocks is the sum over the first 256 columns of the squared products. -/
theorem pre_sq (x : Vec Ideal S1024x512 .f32) (w : Vec Ideal S512x512 .f32) (p : Fin 1024) (q : Fin 512) :
    matmul (F := Ideal) dot_S1024x256_S512x256_S1024x512_1_1_0_0_n_n none
        (truncf .bf16 (mulf (extractStridedSlice S1024x256 ![0, 0] x slices_S1024x512_o0_0_S1024x256)
          (extractStridedSlice S1024x256 ![0, 0] x slices_S1024x512_o0_0_S1024x256)) bitsLt_bf16_f32)
        (truncf .bf16 (mulf (extractStridedSlice S512x256 ![0, 0] w slices_S512x512_o0_0_S512x256)
          (extractStridedSlice S512x256 ![0, 0] w slices_S512x512_o0_0_S512x256)) bitsLt_bf16_f32)
        (constant S1024x512 .f32 0x00000000#32) (ix2 p q)
      = ∑ k : Fin 256, (x (ix2 p ⟨k.val, by have := k.isLt; omega⟩) * x (ix2 p ⟨k.val, by have := k.isLt; omega⟩)) * (w (ix2 q ⟨k.val, by have := k.isLt; omega⟩) * w (ix2 q ⟨k.val, by have := k.isLt; omega⟩)) := by
  rw [pre_apply]
  refine Finset.sum_congr rfl fun k _ => ?_
  rw [truncf_apply, truncf_apply, mulf_apply, mulf_apply, slice_rows, slice_lanes]

/-- The keep factor of an entry, from the first 256 columns of the two blocks. -/
theorem keep_apply (x : Vec Ideal S1024x512 .f32) (w : Vec Ideal S512x512 .f32) (p : Fin 1024) (q : Fin 512) :
    k0_pay4 (F := Ideal) x w (ix2 p q)
      = keep (gate (∑ k : Fin 256, x (ix2 p ⟨k.val, by have := k.isLt; omega⟩) * w (ix2 q ⟨k.val, by have := k.isLt; omega⟩))
          (∑ k : Fin 256, (x (ix2 p ⟨k.val, by have := k.isLt; omega⟩) * x (ix2 p ⟨k.val, by have := k.isLt; omega⟩)) * (w (ix2 q ⟨k.val, by have := k.isLt; omega⟩) * w (ix2 q ⟨k.val, by have := k.isLt; omega⟩)))) := by
  rw [← pre_dot x w p q, ← pre_sq x w p q]
  unfold k0_pay4 k0_pay2
  rw [shapeCast_self, shapeCast_self, select_apply]
  rfl

/-- The output entry: accumulator times keep factor plus the lane's bias. -/
theorem out_apply (a κ : Vec Ideal S1024x512 .f32) (β : Vec Ideal S1x512 .f32) (p : Fin 1024) (q : Fin 512) :
    k0_pay5 (F := Ideal) a κ β (ix2 p q) = a (ix2 p q) * κ (ix2 p q) + β (ix2 (0 : Fin 1) q) := by
  unfold k0_pay5
  rw [shapeCast_self, addf_apply, mulf_apply]
  refine congrArg (a (ix2 p q) * κ (ix2 p q) + ·) ?_
  exact broadcastTo_apply β broadcasts_S1x512_S1024x512 (ix2 p q) (ix2 (0 : Fin 1) q) (fun a => match a with
    | ⟨0, _⟩ => by rfl
    | ⟨1, _⟩ => by rfl)

end Cert.KernelIdeal.Payload

end
-- ==== Proof.Blocks.lean ====
/-
  The windows' blocks as entries of the whole arrays.

  Grid point t is tile row i = t / 64, tile column j = (t / 8) mod 8 and column block k = t mod 8 (the last grid axis moves
  fastest). Entry (p, c) of the block of rows at t is entry (1024 · i + p, 512 · k + c) of the [8192, 4096] array of rows; entry
  (q, c) of the block of lane weights is entry (512 · j + q, 512 · k + c) of the [4096, 4096] weights; entry (0, q) of the bias block
  is entry (0, 512 · j + q) of the [1, 4096] bias row. A block's coordinate is always (block index) · (block size) + (coordinate
  inside the block); the block indices are the printed index maps, decided once over the 512 points.
-/
import proofs.«161111_j30949534335490_2_alg».proof.Proof.Gen.KernelIdeal.Frame
import proofs.«161111_j30949534335490_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx Cert.GatedLinear

variable (m : (ℓ : Loc nD τ sig) → Buf (Elt Ideal) ℓ)

/-- The printed index maps over the grid: which tile row, tile column and column block each point is. -/
theorem idx_facts : ∀ t : Fin cfg0.N,
    win0_0.index t (0 : Fin 2) = t.val / 64 ∧ win0_0.index t (1 : Fin 2) = t.val % 8
    ∧ win0_1.index t (0 : Fin 2) = t.val / 8 % 8 ∧ win0_1.index t (1 : Fin 2) = t.val % 8
    ∧ win0_2.index t (0 : Fin 2) = 0 ∧ win0_2.index t (1 : Fin 2) = t.val / 8 % 8
    ∧ win0_3.index t (0 : Fin 2) = t.val / 64 ∧ win0_3.index t (1 : Fin 2) = t.val / 8 % 8 :=
  (by decide +kernel : ∀ t : Fin grid0.N, _)

/-- The rows as the region finds them, the lane weights, and the bias row. -/
abbrev rows (c : Dev nD) : (⟨2, ![8192, 4096]⟩ : Shape).Idx → EReal := V m c main_v0
abbrev lanes (c : Dev nD) : (⟨2, ![4096, 4096]⟩ : Shape).Idx → EReal := V m c main_arg1
abbrev biasRow (c : Dev nD) : (⟨2, ![1, 4096]⟩ : Shape).Idx → EReal := V m c main_v1

/-- Entry (p, k) of the block of rows at point t. -/
theorem rows_blk (c : Dev nD) (t : Fin cfg0.N) (p : Fin 1024) (k : Fin 512) :
    (iblk m c 0 t : Vec Ideal S1024x512 .f32) (ix2 p k)
      = rowAt (rows m c) (t.val / 64 * 1024 + p.val) (t.val % 8 * 512 + k.val) := by
  obtain ⟨e0, e1, -⟩ := idx_facts t
  have hN : t.val < 512 := lt_of_lt_of_eq t.isLt N_0
  have hp := p.isLt
  have hk := k.isLt
  rw [rowAt_of_lt _ (by omega : t.val / 64 * 1024 + p.val < 8192) (by omega : t.val % 8 * 512 + k.val < 4096)]
  unfold iblk
  rw [View.read_apply]
  show V m c main_v0 (((cfg0.win 0).blk t).view.emb (ix2 p k)) = V m c main_v0 _
  refine congrArg _ (funext fun a => Fin.ext ?_)
  match a with
  | ⟨0, _⟩ => show win0_0.index t (0 : Fin 2) * 1024 + 1 * p.val = t.val / 64 * 1024 + p.val; rw [e0]; omega
  | ⟨1, _⟩ => show win0_0.index t (1 : Fin 2) * 512 + 1 * k.val = t.val % 8 * 512 + k.val; rw [e1]; omega

/-- Entry (q, k) of the block of lane weights at point t. -/
theorem lanes_blk (c : Dev nD) (t : Fin cfg0.N) (q : Fin 512) (k : Fin 512) :
    (iblk m c 1 t : Vec Ideal S512x512 .f32) (ix2 q k)
      = laneAt (lanes m c) (t.val / 8 % 8 * 512 + q.val) (t.val % 8 * 512 + k.val) := by
  obtain ⟨-, -, e0, e1, -⟩ := idx_facts t
  have hN : t.val < 512 := lt_of_lt_of_eq t.isLt N_0
  have hq := q.isLt
  have hk := k.isLt
  rw [laneAt_of_lt _ (by omega : t.val / 8 % 8 * 512 + q.val < 4096) (by omega : t.val % 8 * 512 + k.val < 4096)]
  unfold iblk
  rw [View.read_apply]
  show V m c main_arg1 (((cfg0.win 1).blk t).view.emb (ix2 q k)) = V m c main_arg1 _
  refine congrArg _ (funext fun a => Fin.ext ?_)
  match a with
  | ⟨0, _⟩ => show win0_1.index t (0 : Fin 2) * 512 + 1 * q.val = t.val / 8 % 8 * 512 + q.val; rw [e0]; omega
  | ⟨1, _⟩ => show win0_1.index t (1 : Fin 2) * 512 + 1 * k.val = t.val % 8 * 512 + k.val; rw [e1]; omega

/-- Entry (0, q) of the bias block at point t. -/
theorem bias_blk (c : Dev nD) (t : Fin cfg0.N) (q : Fin 512) :
    (iblk m c 2 t : Vec Ideal S1x512 .f32) (ix2 (0 : Fin 1) q)
      = biasRow m c (ix2 (0 : Fin 1) ⟨t.val / 8 % 8 * 512 + q.val, by
          have hN : t.val < 512 := lt_of_lt_of_eq t.isLt N_0
          have hq := q.isLt
          omega⟩) := by
  obtain ⟨-, -, -, -, e0, e1, -⟩ := idx_facts t
  have hN : t.val < 512 := lt_of_lt_of_eq t.isLt N_0
  have hq := q.isLt
  unfold iblk
  rw [View.read_apply]
  show V m c main_v1 (((cfg0.win 2).blk t).view.emb (ix2 (0 : Fin 1) q)) = V m c main_v1 _
  refine congrArg _ (funext fun a => Fin.ext ?_)
  match a with
  | ⟨0, _⟩ => show win0_2.index t (0 : Fin 2) * 1 + 1 * 0 = 0; rw [e0]
  | ⟨1, _⟩ => show win0_2.index t (1 : Fin 2) * 512 + 1 * q.val = t.val / 8 % 8 * 512 + q.val; rw [e1]; omega

end Cert.KernelIdeal.Blocks

end
-- ==== Proof.Invariant.lean ====
/-
  What the carried buffers hold after every grid point, and what the output block holds when it is written.

  For point n write r = 1024 · (n / 64) + p for the row and l = 512 · ((n / 8) mod 8) + q for the lane of entry (p, q) of the tile,
  and k = n mod 8. By induction on n:
    · the accumulator's entry is the sum of the products X[r, c] · W[l, c] over the first (k + 1) · 512 columns — at k = 0 the zero
      block plus the first 512 terms, afterwards the previous sum (same tile: r and l do not move while k ≠ 0) plus the next 512;
    · the keep buffer's entry is the keep factor of the two prefix statistics of (r, l), computed at k = 0 and handed on.
  At k = 7 the accumulator has all 4096 columns, and the output entry  acc · keep + bias  is the gated sum plus the bias.
-/
import proofs.«161111_j30949534335490_2_alg».proof.Proof.Chain
import proofs.«161111_j30949534335490_2_alg».proof.Proof.Payload
import proofs.«161111_j30949534335490_2_alg».proof.Proof.Blocks

set_option maxRecDepth 16384

noncomputable section

open Idealize.ShloMosaic Idealize.ShloMosaic.TcCoe Idealize.SL.Sem

namespace Cert.KernelIdeal.Invariant

open Cert.KernelIdeal Cert.KernelIdeal.Gen Idealize.ShloMosaic.ValueIdx Cert.GatedLinear Cert.KernelIdeal.Blocks

variable (m : (ℓ : Loc nD τ sig) → Buf (Elt Ideal) ℓ)

/-- The blocks of rows, of lane weights and of bias at point n, at their literal shapes. -/
abbrev xb (c : Dev nD) (n : ℕ) (h : n < cfg0.N) : Vec Ideal S1024x512 .f32 := iblk m c 0 ⟨n, h⟩
abbrev wb (c : Dev nD) (n : ℕ) (h : n < cfg0.N) : Vec Ideal S512x512 .f32 := iblk m c 1 ⟨n, h⟩
abbrev bb (c : Dev nD) (n : ℕ) (h : n < cfg0.N) : Vec Ideal S1x512 .f32 := iblk m c 2 ⟨n, h⟩

theorem xb_apply (c : Dev nD) (n : ℕ) (h : n < cfg0.N) (p : Fin 1024) (k : Fin 512) :
    xb m c n h (ix2 p k) = rowAt (rows m c) (n / 64 * 1024 + p.val) (n % 8 * 512 + k.val) := rows_blk m c ⟨n, h⟩ p k
theorem wb_apply (c : Dev nD) (n : ℕ) (h : n < cfg0.N) (q : Fin 512) (k : Fin 512) :
    wb m c n h (ix2 q k) = laneAt (lanes m c) (n / 8 % 8 * 512 + q.val) (n % 8 * 512 + k.val) := lanes_blk m c ⟨n, h⟩ q k

/-- The products of the two blocks at point n, summed along the block's 512 columns, are the terms of columns
    512 · k, …, 512 · k + 511 of the row and lane. -/
theorem block_sum (c : Dev nD) (n : ℕ) (h : n < cfg0.N) (p : Fin 1024) (q : Fin 512) :
    ∑ k : Fin 512, xb m c n h (ix2 p k) * wb m c n h (ix2 q k)
      = ∑ k : Fin 512, term (rows m c) (lanes m c) (n / 64 * 1024 + p.val) (n / 8 % 8 * 512 + q.val) (n % 8 * 512 + k.val) :=
  Finset.sum_congr rfl fun k _ => by
    rw [xb_apply, wb_apply]; rfl

/-- At a first column block (k = 0) the first 256 columns of the blocks are the first 256 columns of the row and lane. -/
theorem prefix_sums (c : Dev nD) (n : ℕ) (h : n < cfg0.N) (h0 : n % 8 = 0) (p : Fin 1024) (q : Fin 512) :
    (∑ k : Fin 256, xb m c n h (ix2 p ⟨k.val, by have := k.isLt; omega⟩)
        * wb m c n h (ix2 q ⟨k.val, by have := k.isLt; omega⟩))
      = dotTo (rows m c) (lanes m c) (n / 64 * 1024 + p.val) (n / 8 % 8 * 512 + q.val) 256
    ∧ (∑ k : Fin 256, (xb m c n h (ix2 p ⟨k.val, by have := k.isLt; omega⟩)
          * xb m c n h (ix2 p ⟨k.val, by have := k.isLt; omega⟩))
        * (wb m c n h (ix2 q ⟨k.val, by have := k.isLt; omega⟩)
          * wb m c n h (ix2 q ⟨k.val, by have := k.isLt; omega⟩)))
      = sqTo (rows m c) (lanes m c) (n / 64 * 1024 + p.val) (n / 8 % 8 * 512 + q.val) 256 := by
  have e : ∀ k : Fin 256, n % 8 * 512 + k.val = k.val := fun k => by omega
  refine ⟨?_, ?_⟩
  · rw [dotTo_fin]
    refine Finset.sum_congr rfl fun k _ => ?_
    rw [xb_apply, wb_apply]
    show rowAt _ _ (n % 8 * 512 + k.val) * laneAt _ _ (n % 8 * 512 + k.val) = _
    rw [e k]; rfl
  · rw [sqTo_fin]
    refine Finset.sum_congr rfl fun k _ => ?_
    rw [xb_apply, wb_apply]
    show (rowAt _ _ (n % 8 * 512 + k.val) * rowAt _ _ (n % 8 * 512 + k.val)) * (laneAt _ _ (n % 8 * 512 + k.val) * laneAt _ _ (n % 8 * 512 + k.val)) = _
    rw [e k]; rfl

/-- THE INVARIANT of the two carried buffers. -/
theorem carried (c : Dev nD) (n : ℕ) : ∀ (h : n < cfg0.N) (p : Fin 1024) (q : Fin 512),
    (outsAt0 m c n h).2.1 (ix2 p q)
        = dotTo (rows m c) (lanes m c) (n / 64 * 1024 + p.val) (n / 8 % 8 * 512 + q.val) ((n % 8 + 1) * 512)
    ∧ (outsAt0 m c n h).2.2 (ix2 p q)
        = keep (gate (dotTo (rows m c) (lanes m c) (n / 64 * 1024 + p.val) (n / 8 % 8 * 512 + q.val) 256)
            (sqTo (rows m c) (lanes m c) (n / 64 * 1024 + p.val) (n / 8 % 8 * 512 + q.val) 256)) := by
  induction n using Nat.strong_induction_on with
  | _ n ih =>
    intro h p q
    have hN : n < 512 := lt_of_lt_of_eq h N_0
    have e4 : (n % 8 + 1) * 512 = n % 8 * 512 + 512 := by omega
    by_cases h0 : n % 8 = 0
    · obtain ⟨ha, hk⟩ := Chain.first m c ⟨n, h⟩ h0
      have ha' : (outsAt0 m c n h).2.1 = k0_pay3 (xb m c n h) (wb m c n h) (k0_pay1 (F := Ideal)) := ha
      have hk' : (outsAt0 m c n h).2.2 = k0_pay4 (xb m c n h) (wb m c n h) := hk
      obtain ⟨s1, s2⟩ := prefix_sums m c n h h0 p q
      refine ⟨?_, ?_⟩
      · rw [ha']
        refine (Payload.acc_apply (xb m c n h) (wb m c n h) (k0_pay1 (F := Ideal)) p q).trans ?_
        rw [Payload.zero_apply, zero_add, block_sum m c n h p q, e4, dotTo_add_fin]
        have e0 : n % 8 * 512 = 0 := by omega
        rw [e0, dotTo_zero, zero_add]
      · rw [hk']
        refine (Payload.keep_apply (xb m c n h) (wb m c n h) p q).trans ?_
        rw [s1, s2]
    · have hpos : n - 1 < n := by omega
      have hlt : n - 1 < cfg0.N := Nat.lt_of_le_of_lt (Nat.sub_le _ _) h
      obtain ⟨ha, hk⟩ := Chain.later m c ⟨n, h⟩ h0
      have ha' : (outsAt0 m c n h).2.1 = k0_pay3 (xb m c n h) (wb m c n h) (outsAt0 m c (n - 1) hlt).2.1 := ha
      have hk' : (outsAt0 m c n h).2.2 = (outsAt0 m c (n - 1) hlt).2.2 := hk
      obtain ⟨i1, i2⟩ := ih (n - 1) hpos hlt p q
      have e1 : (n - 1) / 64 * 1024 + p.val = n / 64 * 1024 + p.val := by omega
      have e2 : (n - 1) / 8 % 8 * 512 + q.val = n / 8 % 8 * 512 + q.val := by omega
      have e3 : ((n - 1) % 8 + 1) * 512 = n % 8 * 512 := by omega
      rw [e1, e2] at i2
      rw [e1, e2, e3] at i1
      refine ⟨?_, ?_⟩
      · rw [ha']
        refine (Payload.acc_apply (xb m c n h) (wb m c n h) (outsAt0 m c (n - 1) hlt).2.1 p q).trans ?_
        rw [i1, block_sum m c n h p q, e4, dotTo_add_fin]
      · rw [hk', i2]

/-- WHAT IS WRITTEN BACK: at a last column block (k = 7) the output block's entry is the specified result at the entry's
    row and lane — the accumulator now holds all 4096 columns, and multiplying by the keep factor is the selection. -/
theorem out_entry (c : Dev nD) (n : ℕ) (h : n < cfg0.N) (h7 : n % 8 = 7) (p : Fin 1024) (q : Fin 512)
    (hr : n / 64 * 1024 + p.val < 8192) (hl : n / 8 % 8 * 512 + q.val < 4096) :
    (outsAt0 m c n h).1 (ix2 p q)
      = result (rows m c) (lanes m c) (fun j => biasRow m c (ix2 (0 : Fin 1) (j 0)))
          (ix2 ⟨n / 64 * 1024 + p.val, hr⟩ ⟨n / 8 % 8 * 512 + q.val, hl⟩) := by
  have hN : n < 512 := lt_of_lt_of_eq h N_0
  have hlt : n - 1 < cfg0.N := Nat.lt_of_le_of_lt (Nat.sub_le _ _) h
  have hl' : (outsAt0 m c n h).1
      = k0_pay5 (k0_pay3 (xb m c n h) (wb m c n h) (outsAt0 m c (n - 1) hlt).2.1)
          (outsAt0 m c (n - 1) hlt).2.2 (bb m c n h) := Chain.last m c ⟨n, h⟩ h7
  obtain ⟨i1, i2⟩ := carried m c (n - 1) hlt p q
  have e1 : (n - 1) / 64 * 1024 + p.val = n / 64 * 1024 + p.val := by omega
  have e2 : (n - 1) / 8 % 8 * 512 + q.val = n / 8 % 8 * 512 + q.val := by omega
  have e3 : ((n - 1) % 8 + 1) * 512 = n % 8 * 512 := by omega
  have e5 : n % 8 * 512 + 512 = 4096 := by omega
  rw [e1, e2] at i2
  rw [e1, e2, e3] at i1
  rw [hl']
  refine (Payload.out_apply _ (outsAt0 m c (n - 1) hlt).2.2 (bb m c n h) p q).trans ?_
  refine (congrArg (· * _ + _) (Payload.acc_apply (xb m c n h) (wb m c n h) (outsAt0 m c (n - 1) hlt).2.1 p q)).trans ?_
  rw [i1, i2, block_sum m c n h p q, ← dotTo_add_fin, e5, mul_keep]
  exact congrArg (Scalar.select _ _ _ + ·) (bias_blk m c ⟨n, h⟩ q)

end Cert.KernelIdeal.Invariant

end
-- ==== Proof.Final.lean ====
/-
  The kernel's run, read: its final result is the [8192, 4096] specified result, re-laid as [4, 2048, 4096].

  Only the points with k = 7 write an output block back, and what each writes is the specified result restricted to its tile
  (the invariant). Entry (r, l) of the [8192, 4096] array lies in the tile of row block r / 1024 and lane block l / 512, which is written
  at point 64 · (r / 1024) + 8 · (l / 512) + 7; so the tiles cover the array and it ends holding the specified result everywhere.
  The rows the region finds are the first argument re-laid as [8192, 4096], the bias row the third argument with a unit axis in front
  (entry (0, n) of it is entry n of the argument), the lane weights the second argument as it is; after the region one re-laying
  takes the [8192, 4096] array to the [4, 2048, 4096] result.
-/
import proofs.«161111_j30949534335490_2_alg».proof.Proof.Invariant
import Idealize.ShloMosaic.Lib.StableHlo.Run
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.GatedLinear Cert.KernelIdeal.Blocks
open Idealize.ShloMosaic.StableHlo

variable (m : (ℓ : Loc nD τ sig) → Buf (Elt Ideal) ℓ) (ρ : Dev nD → PrngReg)

/-- The specified result over the arrays as the region finds them. -/
abbrev whole (c : Dev nD) : (⟨2, ![8192, 4096]⟩ : Shape).Idx → EReal :=
  result (rows m c) (lanes m c) (fun j => biasRow m c (ix2 (0 : Fin 1) (j 0)))

/-- Entry j of the output block at a writing point is the specified result at the entry's place in the array. -/
theorem out_at (c : Dev nD) (t : Fin cfg0.N) (h7 : t.val % 8 = 7) (j : S1024x512.Idx) :
    (outsAt0 m c t.val t.isLt).1 j = whole m c (((cfg0.win 3).blk t).view.emb j) := by
  obtain ⟨p, q, rfl⟩ : ∃ (p : Fin 1024) (q : Fin 512), j = ix2 p q := ⟨j 0, j 1, eq_ix2 j⟩
  have hN : t.val < 512 := lt_of_lt_of_eq t.isLt N_0
  have hp := p.isLt
  have hq := q.isLt
  obtain ⟨-, -, -, -, -, -, e0, e1⟩ := idx_facts t
  have hr : t.val / 64 * 1024 + p.val < 8192 := by omega
  have hl : t.val / 8 % 8 * 512 + q.val < 4096 := by omega
  rw [Invariant.out_entry m c t.val t.isLt h7 p q hr hl]
  refine congrArg (whole m c) (funext fun a => Fin.ext ?_)
  match a with
  | ⟨0, _⟩ => show t.val / 64 * 1024 + p.val = win0_3.index t (0 : Fin 2) * 1024 + 1 * p.val; rw [e0]; omega
  | ⟨1, _⟩ => show t.val / 8 % 8 * 512 + q.val = win0_3.index t (1 : Fin 2) * 512 + 1 * q.val; rw [e1]; omega

/-- WHAT A WRITING POINT WRITES BACK is its tile of the specified result. -/
theorem flushed_eq (c : Dev nD) (t : Fin cfg0.N) (hf : (cfg0.win 3).flush t = true) :
    (dats m 0 c).flushed 3 t = ((cfg0.win 3).blk t).view.read (Elt Ideal) (whole m c) := by
  have h7 : t.val % 8 = 7 := (flush0_3 t).mp hf
  show (cfg0.win 3).cut (grid0.coords t) ((dats m 0 c).after 3 t) = _
  rw [after0_3]
  funext j
  exact out_at m c t h7 j

/-- An entry of the array is in point t's tile iff each coordinate is in the tile's range on its axis. -/
theorem mem_tile (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v2).slice (win0_3.rect t)).set ↔ _
  rw [View.set_slice_whole, Rect.mem_set_unit]
  exact Iff.rfl

/-- Every entry lies in the tile some writing point writes. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hlt : (i 0).val / 1024 * 64 + (i 1).val / 512 * 8 + 7 < cfg0.N := by rw [show cfg0.N = 512 from N_0]; omega
  obtain ⟨-, -, -, -, -, -, e0, e1⟩ := idx_facts ⟨(i 0).val / 1024 * 64 + (i 1).val / 512 * 8 + 7, hlt⟩
  refine ⟨⟨(i 0).val / 1024 * 64 + (i 1).val / 512 * 8 + 7, hlt⟩, (flush0_3 _).mpr (by show ((i 0).val / 1024 * 64 + (i 1).val / 512 * 8 + 7) % 8 = 7; omega), ?_⟩
  rw [mem_tile]
  intro a
  match a with
  | ⟨0, _⟩ =>
    show win0_3.index ⟨(i 0).val / 1024 * 64 + (i 1).val / 512 * 8 + 7, hlt⟩ (0 : Fin 2) * 1024 ≤ (i 0).val ∧ (i 0).val < win0_3.index ⟨(i 0).val / 1024 * 64 + (i 1).val / 512 * 8 + 7, hlt⟩ (0 : Fin 2) * 1024 + 1024
    rw [e0]; dsimp only; omega
  | ⟨1, _⟩ =>
    show win0_3.index ⟨(i 0).val / 1024 * 64 + (i 1).val / 512 * 8 + 7, hlt⟩ (1 : Fin 2) * 512 ≤ (i 1).val ∧ (i 1).val < win0_3.index ⟨(i 0).val / 1024 * 64 + (i 1).val / 512 * 8 + 7, hlt⟩ (1 : Fin 2) * 512 + 512
    rw [e1]; dsimp only; omega

/-- THE ARRAY after the region is the specified result. -/
theorem final (c : Dev nD) : (dats m 0 c).arrAt 3 cfg0.N = whole m c :=
  (dats m 0 c).arrAt_eq_of_cover 3 (whole m c) (flushed_eq m c) covered

/-! ## The arrays the region finds, as functions of the arguments -/

/-- The rows are the first argument re-laid as [8192, 4096]. -/
theorem rows_eq (c : Dev nD) :
    rows m c = shapeCast S8192x4096 (m ((c : Thread nD τ).loc main_arg0)) shapeCasts_S4x2048x4096_S8192x4096 := by
  show StableHlo.after hostOps0 (fun b => m (c, b)) (Proc.devRef .tc main_v0) = _
  after_results
  rfl

/-- The bias row is the third argument with a unit axis in front. -/
theorem biasRow_eq (c : Dev nD) :
    biasRow m c = shapeCast S1x4096 (m ((c : Thread nD τ).loc main_arg2)) shapeCasts_S4096_S1x4096 := by
  show StableHlo.after hostOps0 (fun b => m (c, b)) (Proc.devRef .tc main_v1) = _
  after_results
  rfl

/-- Entry (0, n) of the bias row is entry n of the third argument. -/
theorem bias_entry (c : Dev nD) :
    (fun j : (⟨1, ![4096]⟩ : Shape).Idx => biasRow m c (ix2 (0 : Fin 1) (j 0))) = m ((c : Thread nD τ).loc main_arg2) := by
  funext j
  rw [biasRow_eq]
  refine (shapeCast_a_1a_apply (m ((c : Thread nD τ).loc main_arg2)) shapeCasts_S4096_S1x4096 (0 : Fin 1) (j 0)).trans ?_
  exact congrArg _ (eq_ix1 j).symm

/-- The specified result over the arrays the region finds is the specified result over the arguments. -/
theorem whole_eq (c : Dev nD) :
    whole m c = result (shapeCast S8192x4096 (m ((c : Thread nD τ).loc main_arg0)) shapeCasts_S4x2048x4096_S8192x4096)
      (m ((c : Thread nD τ).loc main_arg1)) (m ((c : Thread nD τ).loc main_arg2)) := by
  have hx := rows_eq m c
  have hw : lanes m c = m ((c : Thread nD τ).loc main_arg1) := V_main_arg1 m c
  have hb := bias_entry m c
  show result (rows m c) (lanes m c) (fun j => biasRow m c (ix2 (0 : Fin 1) (j 0))) = _
  rw [hx, hw, hb]

/-! ## The re-laying after the region, and the run -/

/-- The final result is the re-laying of the array the region leaves. -/
theorem tail_eq (c : Dev nD) :
    Pipeline.afterTail₀ cfgs (dats m) 0 (V0 m) [hostOps1] c main_v3
      = shapeCast S4x2048x4096 (whole m c) shapeCasts_S8192x4096_S4x2048x4096 := by
  unfold Pipeline.afterTail₀
  show StableHlo.after hostOps1 _ (Proc.devRef .tc main_v3) = _
  after_results
  refine congrArg (fun v => shapeCast S4x2048x4096 v shapeCasts_S8192x4096_S4x2048x4096) ?_
  exact (Pipeline.withArrays_arr spec0 launch0.win.arr_inj c _ _ 3).trans (final m c)

/-- THE RUN, READ: every weakly fair execution ends with the result at the re-laid specified result of the arguments,
    and the three arguments unchanged. -/
theorem run : θ_run defs (onTc (τ := τ) (main (F := Ideal))) ⟨m, fun _ => 0, ρ⟩ fun r => ∀ c : Dev nD,
      r.2.mem ((c : Thread nD τ).loc main_v3)
        = shapeCast S4x2048x4096 (result (shapeCast S8192x4096 (m ((c : Thread nD τ).loc main_arg0)) shapeCasts_S4x2048x4096_S8192x4096)
            (m ((c : Thread nD τ).loc main_arg1)) (m ((c : Thread nD τ).loc main_arg2))) shapeCasts_S8192x4096_S4x2048x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v3 (Pipeline.mem_restRefs_of main_v3 (by decide) (by decide))).trans
        ((tail_eq m c).trans (congrArg (fun v => shapeCast S4x2048x4096 v shapeCasts_S8192x4096_S4x2048x4096) (whole_eq m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.lean ====
/-
  A linear layer whose output lanes are gated by a confidence test, against its plain jnp statement, over the extended reals.

  x : [4, 2048, 4096] is read as 8192 rows X[r, ·] of 4096 columns; W : [4096, 4096] has one row per output lane; b : [4096].
  For row r and lane n, with t(c) = X[r, c] · W[n, c]:
      y₁ = ∑_{c < 256} t(c),   s₂ = ∑_{c < 256} (X[r, c] · X[r, c]) · (W[n, c] · W[n, c]),
      gate = ( |y₁| / max (√(s₂ / 256 + ε), ε) < 3 ),
      out[r, n] = (0 if the gate holds, else ∑_{c < 4096} t(c)) + b[n],
  and the result is out re-laid as [4, 2048, 4096].

  The reference computes exactly this: the two prefix contractions, a third contraction over the columns from 256 on, prefix + tail,
  a selection, the bias. The kernel tiles out into 8 × 8 tiles of [1024, 512] and visits each tile at eight consecutive grid
  points, one per 512-column block of the contraction: it accumulates the block products in a scratch buffer (zeroed at the first
  block), computes at the first block a keep factor (0 under the gate, 1 otherwise) from that block's first 256 columns into a second
  scratch buffer, and at the last block writes  accumulator · keep + bias  to the tile.

  Why the two agree at the ideal instance, where a change of float format is the identity and a matrix product is the plain sum:
    · the accumulator after block k is the sum over the first 512 · (k + 1) columns (induction over the grid points; splitting a sum
      after a column is associativity, which holds on the extended reals with no finiteness asked), so after the last block it is
      the sum over all 4096 columns, which is also the reference's prefix + tail;
    · a · 0 = 0 and a · 1 = a for every extended real a, so  accumulator · keep  IS the selection;
    · both gates are the same expression of the same two prefix sums, with the same constants.
  The precondition (finite inputs) is therefore never opened. The word-level kernel and its idealization differ by no sanctioned
  rewrite, so that claim is `True`.
-/
import proofs.«161111_j30949534335490_2_alg».proof.Defs
import proofs.«161111_j30949534335490_2_alg».proof.Proof.Gen.Kernel
import proofs.«161111_j30949534335490_2_alg».proof.Proof.Gen.Kernel.Frame
import proofs.«161111_j30949534335490_2_alg».proof.Proof.Gen.KernelIdeal
import proofs.«161111_j30949534335490_2_alg».proof.Proof.Gen.KernelIdeal.Frame
import proofs.«161111_j30949534335490_2_alg».proof.Proof.Gen.ReferenceIdeal
import proofs.«161111_j30949534335490_2_alg».proof.Proof.Gen.Pre_finite_inputs
import proofs.«161111_j30949534335490_2_alg».proof.Proof.Gen.ReferenceIdeal.Run
import proofs.«161111_j30949534335490_2_alg».proof.Proof.Gen.ReferenceIdeal.Read
import proofs.«161111_j30949534335490_2_alg».proof.Proof.RefValue
import proofs.«161111_j30949534335490_2_alg».proof.Proof.Final
import Idealize.ShloMosaic.Adequacy
import Idealize.ShloMosaic.Init

noncomputable section

namespace Cert.Proof

open Idealize.ShloMosaic Idealize.ShloMosaic.TcCoe Idealize.SL.Sem

/-- Every execution of the word-level kernel terminates without a fault and leaves the arguments as they were. -/
theorem frame_k : Cert.frame_Kernel := fun m ρ _ => Cert.Kernel.Gen.frame m ρ

/-- The same for the idealized kernel. -/
theorem frame_ki : Cert.frame_KernelIdeal := fun m ρ _ => Cert.KernelIdeal.Gen.frame m ρ

/-- The same for the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No sanctioned rewrite separates the kernel from its idealization. -/
theorem preserves : Cert.preserves_Kernel_KernelIdeal := trivial

/-- From memories that agree on the three arguments both programs end with the same result: the re-laid specified result. -/
theorem algebraic : Cert.algebraic_KernelIdeal_ReferenceIdeal := by
  intro m ρ m' ρ' _ hagree
  refine ⟨fun c => shapeCast Cert.KernelIdeal.S4x2048x4096
      (Cert.GatedLinear.result
        (shapeCast Cert.KernelIdeal.S8192x4096 (m ((c.tc : Thread Cert.KernelIdeal.nD Cert.KernelIdeal.τ).loc Cert.KernelIdeal.main_arg0)) Cert.KernelIdeal.Facts₀.shapeCasts_S4x2048x4096_S8192x4096)
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      Cert.KernelIdeal.Facts₀.shapeCasts_S8192x4096_S4x2048x4096, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq]
  unfold Cert.ReferenceIdeal.Read.val_main_v26
  rw [Cert.ReferenceIdeal.RefValue.stage_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
